-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg6 : FVec F S256x256 .f32) (main_arg7 : FVec F S256x256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S100000x128 .f32) (main_arg1 : IVec S800000 32) (main_arg2 : IVec S800000 32) (main_arg3 : FVec F S128x256 .f32) (main_arg4 : FVec F S128x256 .f32) (main_arg5 : FVec F S256 .f32) (main_arg6 : FVec F S256x256 .f32) (main_arg7 : FVec F S256x256 .f32) (main_arg8 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_v13 main_v16
-- ==== Kernel.lean ====
abbrev S100000x128 : Shape := ⟨2, ![100000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S_ : Shape := ⟨0, ![]⟩
abbrev S100000 : Shape := ⟨1, ![100000]⟩
abbrev S800000x1 : Shape := ⟨2, ![800000, 1]⟩
abbrev S800000x128 : Shape := ⟨2, ![800000, 128]⟩
abbrev S100000x1 : Shape := ⟨2, ![100000, 1]⟩
abbrev S1x256 : Shape := ⟨2, ![1, 256]⟩
abbrev S100000x256 : Shape := ⟨2, ![100000, 256]⟩
abbrev S4000x128 : Shape := ⟨2, ![4000, 128]⟩
abbrev S4000x256 : Shape := ⟨2, ![4000, 256]⟩
abbrev S800000x256 : Shape := ⟨2, ![800000, 256]⟩

abbrev nBuf : Space → Nat
  | .hbm => 57
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S100000, .f32⟩
  | .hbm, ⟨13, _⟩ => ⟨S800000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S100000x128, .f32⟩
  | .hbm, ⟨32, _⟩ => ⟨S800000x1, .i32⟩
  | .hbm, ⟨33, _⟩ => ⟨S100000x128, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x256, .f32⟩
  | .hbm, ⟨38, _⟩ => ⟨S100000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S_, .f32⟩
  | .hbm, ⟨49, _⟩ => ⟨S100000x256, .f32⟩
  | .hbm, ⟨50, _⟩ => ⟨S800000x1, .i32⟩
  | .hbm, ⟨51, _⟩ => ⟨S100000x256, .f32⟩
  | .hbm, ⟨52, _⟩ => ⟨S100000x1, .f32⟩
  | .hbm, ⟨53, _⟩ => ⟨S100000x256, .f32⟩
  | .hbm, ⟨54, _⟩ => ⟨S100000x256, .f32⟩
  | .hbm, ⟨55, _⟩ => ⟨S1x256, .f32⟩
  | .hbm, ⟨56, _⟩ => ⟨S100000x256, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S4000x256, .f32⟩
  | .local _ .vmem, ⟨8, _⟩ => ⟨S4000x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S4000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S4000x256, .f32⟩
  | .local _ .vmem, ⟨17, _⟩ => ⟨S4000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S4000x128_S128x256_S4000x256_1_0_0_1_n_n_wf : DotDims.WF S4000x128 S128x256 S4000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S100000x256.size a
  hwx0_5 : ∀ i : grid0.Coords, EltTy.bits .f32 = 32 ∨ (Rect.block (s := S100000x256) S4000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S100000x256.size a
  hwx1_1 : ∀ i : grid1.Coords, EltTy.bits .f32 = 32 ∨ (Rect.block (s := S100000x256) S4000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x256.size a ≤ S100000x256.size a
  hwx1_5 : ∀ i : grid1.Coords, EltTy.bits .f32 = 32 ∨ (Rect.block (s := S100000x256) S4000x256.size (cc1_transform_5 i) (hinb1_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S4000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S800000x256 : Shape := ⟨2, ![800000, 256]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S100000x128, .f32⟩
  | .hbm, ⟨20, _⟩ => ⟨S800000x1, .i32⟩
  | .hbm, ⟨21, _⟩ => ⟨S100000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S100000, .f32⟩
  | .hbm, ⟨26, _⟩ => ⟨S800000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x256, .f32⟩
  | .hbm, ⟨35, _⟩ => ⟨S100000x256, .f32⟩
  | .hbm, ⟨36, _⟩ => ⟨S100000x256, .f32⟩
  | .hbm, ⟨37, _⟩ => ⟨S1x256, .f32⟩
  | .hbm, ⟨38, _⟩ => ⟨S100000x256, .f32⟩
  | .hbm, ⟨39, _⟩ => ⟨S100000x256, .f32⟩
  | .hbm, ⟨40, _⟩ => ⟨S_, .f32⟩
  | .hbm, ⟨41, _⟩ => ⟨S100000x256, .f32⟩
  | .hbm, ⟨42, _⟩ => ⟨S100000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S100000x256, .f32⟩
  | .hbm, ⟨54, _⟩ => ⟨S800000x1, .i32⟩
  | .hbm, ⟨55, _⟩ => ⟨S100000x256, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S100000, .f32⟩
  | .hbm, ⟨60, _⟩ => ⟨S800000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x256, .f32⟩
  | .hbm, ⟨67, _⟩ => ⟨S100000x256, .f32⟩
  | .hbm, ⟨68, _⟩ => ⟨S100000x256, .f32⟩
  | .hbm, ⟨69, _⟩ => ⟨S100000x256, .f32⟩
  | .hbm, ⟨70, _⟩ => ⟨S100000x256, .f32⟩
  | .hbm, ⟨71, _⟩ => ⟨S1x256, .f32⟩
  | .hbm, ⟨72, _⟩ => ⟨S100000x256, .f32⟩
  | .hbm, ⟨73, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x256_S100000x256_1_0_0_1_n_n_wf : DotDims.WF S100000x128 S128x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x256_S100000x256_1_0_0_1_n_n_wf : DotDims.WF S100000x256 S256x256 S100000x256 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.KernelRun.lean ====
/-
  The idealized kernel's run, with its result named.

  The program is four segments: a stretch of host operations, the first launch, a second stretch, the second launch.
  Every weakly fair execution terminates without a fault in a state whose unscoped buffers hold the last boundary's
  contents — the fold of the four segments over the launch memory. Read at the result buffer that is what the second
  launch's write-backs leave in its output array; read at an argument it is the argument as launched.
-/
import proofs.«154255_j9689446219933_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched. -/
theorem run_named : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.RunValue

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.SageLayer.lean ====
/-
  One GraphSAGE layer with mean aggregation, entry by entry, on the extended reals.

  For node features `h : [N, D]`, neighbour means `mean : [N, D]`, weights `ws, wn : [D, H]` and a bias row
  `bias : [1, H]`, the layer's pre-activation at node `a` and output feature `b` is

      (∑ k, h[a,k] · ws[k,b]) + (∑ k, mean[a,k] · wn[k,b]) + bias[0,b],

  and the first layer clamps it below at zero. A node's output depends on that node's row of `h` and of `mean`
  only, so the layer of a block of consecutive rows is that block of the layer of all rows.
-/
import Idealize.ShloMosaic.PureOps.Ideal.Laws
import Idealize.ShloMosaic.Lib.ValueIdx

noncomputable section

open scoped BigOperators

namespace Cert.Sage

open Idealize.ShloMosaic Idealize.ShloMosaic.ValueIdx

variable {N D H : Nat}

/-- The pre-activation at node `a`, output feature `b`. -/
def entry (h mean : FVec Ideal ⟨2, ![N, D]⟩ .f32) (ws wn : FVec Ideal ⟨2, ![D, H]⟩ .f32)
    (bias : FVec Ideal ⟨2, ![1, H]⟩ .f32) (a : Fin N) (b : Fin H) : EReal :=
  (∑ k : Fin D, h (ix2 a k) * ws (ix2 k b)) + (∑ k : Fin D, mean (ix2 a k) * wn (ix2 k b)) + bias (ix2 (0 : Fin 1) b)

/-- The layer followed by the clamp at zero, as one array. -/
def layerRelu (h mean : FVec Ideal ⟨2, ![N, D]⟩ .f32) (ws wn : FVec Ideal ⟨2, ![D, H]⟩ .f32)
    (bias : FVec Ideal ⟨2, ![1, H]⟩ .f32) : FVec Ideal ⟨2, ![N, H]⟩ .f32 :=
  fun i => max (entry h mean ws wn bias (i 0) (i 1)) 0

/-- The layer with no activation, as one array. -/
def layerPlain (h mean : FVec Ideal ⟨2, ![N, D]⟩ .f32) (ws wn : FVec Ideal ⟨2, ![D, H]⟩ .f32)
    (bias : FVec Ideal ⟨2, ![1, H]⟩ .f32) : FVec Ideal ⟨2, ![N, H]⟩ .f32 :=
  fun i => entry h mean ws wn bias (i 0) (i 1)

/-- A node's entry reads only that node's rows: two pairs of feature arrays that agree on row `a` (of one) and row
    `a'` (of the other) give the same entry there. -/
theorem entry_congr {N' : Nat} (h mean : FVec Ideal ⟨2, ![N, D]⟩ .f32) (h' mean' : FVec Ideal ⟨2, ![N', D]⟩ .f32)
    (ws wn : FVec Ideal ⟨2, ![D, H]⟩ .f32) (bias : FVec Ideal ⟨2, ![1, H]⟩ .f32) (a : Fin N) (a' : Fin N') (b : Fin H)
    (hh : ∀ k : Fin D, h (ix2 a k) = h' (ix2 a' k)) (hm : ∀ k : Fin D, mean (ix2 a k) = mean' (ix2 a' k)) :
    entry h mean ws wn bias a b = entry h' mean' ws wn bias a' b := by
  unfold entry
  simp only [hh, hm]

end Cert.Sage

end
-- ==== Proof.KernelPayload.lean ====
/-
  What each kernel body stores, entry by entry.

  Both bodies load a block of 4000 rows of the node features and of the neighbour means, the two weight matrices and the
  bias row, narrow them to bf16 (the identity on the extended reals), take the two matrix products into zero
  accumulators, add them, add the bias row broadcast over the rows, and store the result; the first body clamps it below
  at zero first. At row `p` of the block and output feature `q` that is the GraphSAGE layer's entry of the loaded
  blocks.
-/
import proofs.«154255_j9689446219933_1_alg».proof.Proof.Gen.KernelIdeal.Skeleton
import proofs.«154255_j9689446219933_1_alg».proof.Proof.LibPlainMatmul
import proofs.«154255_j9689446219933_1_alg».proof.Proof.SageLayer
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The first body's stored value at row `p`, feature `q`: the layer's entry of the loaded blocks, clamped at zero. -/
theorem pay0_apply (x0 x1 : FVec Ideal S4000x128 .f32) (x2 x3 : FVec Ideal S128x256 .f32) (x4 : FVec Ideal S1x256 .f32)
    (p : Fin 4000) (q : Fin 256) :
    k0_pay1 (F := Ideal) x0 x1 x2 x3 x4 (ix2 p q) = max (Sage.entry x0 x1 x2 x3 x4 p q) 0 := by
  have e1 := PlainMatmul.matmul_zero_apply (m := 4000) (k := 128) (n := 256) none
    (truncf .bf16 x0 bitsLt_bf16_f32) (truncf .bf16 x2 bitsLt_bf16_f32) p q
  have e2 := PlainMatmul.matmul_zero_apply (m := 4000) (k := 128) (n := 256) none
    (truncf .bf16 (shapeCast S4000x128 x1 shapeCasts_S4000x128_S4000x128) bitsLt_bf16_f32) (truncf .bf16 x3 bitsLt_bf16_f32) p q
  have e3 := broadcastTo_1b_ab_apply (a := 4000) (b := 256) (shapeCast S1x256 x4 shapeCasts_S1x256_S1x256)
    broadcasts_S1x256_S4000x256 p q
  unfold k0_pay1
  show max ((_ + _) + _) _ = _
  refine (congrArg₂ max (congrArg₂ (· + ·) (congrArg₂ (· + ·) e1 e2) e3) Ideal.ofBits_zero_f32).trans ?_
  simp only [shapeCast_self]
  rfl

/-- The second body's stored value at row `p`, feature `q`: the layer's entry of the loaded blocks. -/
theorem pay1_apply (x0 x1 : FVec Ideal S4000x256 .f32) (x2 x3 : FVec Ideal S256x256 .f32) (x4 : FVec Ideal S1x256 .f32)
    (p : Fin 4000) (q : Fin 256) :
    k1_pay1 (F := Ideal) x0 x1 x2 x3 x4 (ix2 p q) = Sage.entry x0 x1 x2 x3 x4 p q := by
  have e1 := PlainMatmul.matmul_zero_apply (m := 4000) (k := 256) (n := 256) none
    (truncf .bf16 (shapeCast S4000x256 x0 shapeCasts_S4000x256_S4000x256) bitsLt_bf16_f32) (truncf .bf16 x2 bitsLt_bf16_f32) p q
  have e2 := PlainMatmul.matmul_zero_apply (m := 4000) (k := 256) (n := 256) none
    (truncf .bf16 (shapeCast S4000x256 x1 shapeCasts_S4000x256_S4000x256) bitsLt_bf16_f32) (truncf .bf16 x3 bitsLt_bf16_f32) p q
  have e3 := broadcastTo_1b_ab_apply (a := 4000) (b := 256) (shapeCast S1x256 x4 shapeCasts_S1x256_S1x256)
    broadcasts_S1x256_S4000x256 p q
  unfold k1_pay1
  show (_ + _) + _ = _
  refine (congrArg₂ (· + ·) (congrArg₂ (· + ·) e1 e2) e3).trans ?_
  simp only [shapeCast_self]
  rfl

end Cert.KernelIdeal.Payload

end
-- ==== Proof.RegionValue0.lean ====
/-
  What each of the two kernel launches leaves in its output array, for ANY contents of the buffers at its entry.

  A launch walks 25 grid points; point `t` stages rows `4000 t … 4000 t + 3999` of the node features and of the
  neighbour means, the whole weight matrices and the bias row, runs the body, and writes the 4000 × 256 block back to
  rows `4000 t …` of the output. A layer's output row depends on the same row of the features and means only, so what
  point `t` writes is block `t` of the layer of the whole arrays; the 25 blocks tile the 100000 rows, so the output
  array ends as the layer of the whole arrays.
-/
import proofs.«154255_j9689446219933_1_alg».proof.Proof.Gen.KernelIdeal.Frame
import proofs.«154255_j9689446219933_1_alg».proof.Proof.KernelPayload
import Idealize.ShloMosaic.Lib.Pipeline.Value

set_option maxRecDepth 16384

noncomputable section

open scoped BigOperators

namespace Cert.KernelIdeal.RegionValue0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps of region 0's six windows, decided once over the 25 grid points: the two feature windows and
    the output window move down the rows with the point, the weight and bias windows stay at the origin. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What region 0 leaves in its output array: the layer, clamped below at zero, of the arrays as the region finds them. -/
abbrev G0 (c : Dev nD) : FVec Ideal S100000x256 .f32 :=
  Sage.layerRelu (N := 100000) (D := 128) (H := 256) (V c main_arg0 : S100000x128.Idx → EReal) (V c main_v20 : S100000x128.Idx → EReal)
    (V c main_arg3 : S128x256.Idx → EReal) (V c main_arg4 : S128x256.Idx → EReal) (V c main_v21 : S1x256.Idx → EReal)

/-- One stored entry against the whole arrays: when the loaded feature blocks' row `p` is the arrays' row `r` and the
    loaded weights and bias are the arrays themselves, the body's value at `(p, q)` is the layer's at `(r, q)`. -/
theorem block_entry0 (x0 x1 : FVec Ideal S4000x128 .f32) (x2 x3 : FVec Ideal S128x256 .f32) (x4 : FVec Ideal S1x256 .f32)
    (A0 A1 : FVec Ideal S100000x128 .f32) (A2 A3 : FVec Ideal S128x256 .f32) (A4 : FVec Ideal S1x256 .f32)
    (p : Fin 4000) (q : Fin 256) (r : Fin 100000)
    (h0 : ∀ k : Fin 128, x0 (ix2 p k) = A0 (ix2 r k)) (h1 : ∀ k : Fin 128, x1 (ix2 p k) = A1 (ix2 r k))
    (h2 : x2 = A2) (h3 : x3 = A3) (h4 : x4 = A4) :
    k0_pay1 (F := Ideal) x0 x1 x2 x3 x4 (ix2 p q) = Sage.layerRelu A0 A1 A2 A3 A4 (ix2 r q) := by
  subst h2 h3 h4
  rw [Payload.pay0_apply]
  unfold Sage.layerRelu
  rw [Sage.entry_congr x0 x1 A0 A1 x2 x3 x4 p r q h0 h1]

/-- WHAT POINT `t` WRITES BACK is block `t` of `G0`: rows `4000 t … 4000 t + 3999`, every column. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x256) hz, View.ld_unit_zero (S := S1x256) hz]
  obtain ⟨e00, e01, e10, e11, e20, e21, e30, e31, e40, e41, e50, e51⟩ := idx_facts0 t
  have hN : cfg0.N = 25 := N_0
  have ht : t.val < 25 := hN ▸ t.isLt
  funext j
  obtain ⟨p, q, rfl⟩ : ∃ (p : Fin 4000) (q : Fin 256), j = ix2 p q := ⟨j 0, j 1, eq_ix2 j⟩
  have hp : p.val < 4000 := p.isLt
  refine (block_entry0 (iblk0 V c 0 t) (iblk0 V c 1 t) (iblk0 V c 2 t) (iblk0 V c 3 t) (iblk0 V c 4 t)
    (V c main_arg0) (V c main_v20) (V c main_arg3) (V c main_arg4) (V c main_v21) p q ⟨4000 * t.val + p.val, by omega⟩ ?_ ?_ ?_ ?_ ?_).trans ?_
  · intro k
    show V c main_arg0 (((cfg0.win 0).blk t).view.emb (ix2 p k)) = _
    refine congrArg (V c main_arg0) (funext fun a => Fin.ext ?_)
    match a with
    | ⟨0, _⟩ => show win0_0.index t (0 : Fin 2) * 4000 + 1 * p.val = 4000 * t.val + p.val; omega
    | ⟨1, _⟩ => show win0_0.index t (1 : Fin 2) * 128 + 1 * k.val = k.val; omega
  · intro k
    show V c main_v20 (((cfg0.win 1).blk t).view.emb (ix2 p k)) = _
    refine congrArg (V c main_v20) (funext fun a => Fin.ext ?_)
    match a with
    | ⟨0, _⟩ => show win0_1.index t (0 : Fin 2) * 4000 + 1 * p.val = 4000 * t.val + p.val; omega
    | ⟨1, _⟩ => show win0_1.index t (1 : Fin 2) * 128 + 1 * k.val = k.val; omega
  · funext y
    show V c main_arg3 (((cfg0.win 2).blk t).view.emb y) = V c main_arg3 y
    refine congrArg (V c main_arg3) (funext fun a => Fin.ext ?_)
    match a with
    | ⟨0, _⟩ => show win0_2.index t (0 : Fin 2) * 128 + 1 * (y 0).val = (y 0).val; omega
    | ⟨1, _⟩ => show win0_2.index t (1 : Fin 2) * 256 + 1 * (y 1).val = (y 1).val; omega
  · funext y
    show V c main_arg4 (((cfg0.win 3).blk t).view.emb y) = V c main_arg4 y
    refine congrArg (V c main_arg4) (funext fun a => Fin.ext ?_)
    match a with
    | ⟨0, _⟩ => show win0_3.index t (0 : Fin 2) * 128 + 1 * (y 0).val = (y 0).val; omega
    | ⟨1, _⟩ => show win0_3.index t (1 : Fin 2) * 256 + 1 * (y 1).val = (y 1).val; omega
  · funext y
    show V c main_v21 (((cfg0.win 4).blk t).view.emb y) = V c main_v21 y
    refine congrArg (V c main_v21) (funext fun a => Fin.ext ?_)
    match a with
    | ⟨0, _⟩ => show win0_4.index t (0 : Fin 2) * 1 + 1 * (y 0).val = (y 0).val; omega
    | ⟨1, _⟩ => show win0_4.index t (1 : Fin 2) * 256 + 1 * (y 1).val = (y 1).val; omega
  · show G0 V c _ = G0 V c (((cfg0.win 5).blk t).view.emb (ix2 p q))
    refine congrArg (G0 V c) (funext fun a => Fin.ext ?_)
    match a with
    | ⟨0, _⟩ => show 4000 * t.val + p.val = win0_5.index t (0 : Fin 2) * 4000 + 1 * p.val; omega
    | ⟨1, _⟩ => show q.val = win0_5.index t (1 : Fin 2) * 256 + 1 * q.val; omega

/-- An index of the output array is in point `t`'s block iff each coordinate is in the block's range on its axis. -/
theorem mem_blk0 (t : Fin cfg0.N) (i : S100000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v22).slice (win0_5.rect t)).set ↔ _
  rw [View.set_slice_whole, Rect.mem_set_unit]
  exact Iff.rfl

/-- Every row of the output array is in some point's block: row `r` in point `r / 4000`'s. -/
theorem cover0 (i : S100000x256.Idx) :
    ∃ t : Fin cfg0.N, (cfg0.win 5).flush t = true ∧ i ∈ ((cfg0.win 5).blk t).view.set := by
  have hi0 : (i 0).val < 100000 := (i 0).isLt
  have hi1 : (i 1).val < 256 := (i 1).isLt
  have hN : cfg0.N = 25 := N_0
  have hlt : (i 0).val / 4000 < cfg0.N := by rw [hN]; omega
  obtain ⟨-, -, -, -, -, -, -, -, -, -, e50, e51⟩ := idx_facts0 ⟨(i 0).val / 4000, hlt⟩
  refine ⟨⟨(i 0).val / 4000, hlt⟩, flush0_5 _, ?_⟩
  rw [mem_blk0]
  intro a
  match a with
  | ⟨0, _⟩ =>
    show win0_5.index ⟨(i 0).val / 4000, hlt⟩ (0 : Fin 2) * 4000 ≤ (i 0).val ∧ (i 0).val < win0_5.index ⟨(i 0).val / 4000, hlt⟩ (0 : Fin 2) * 4000 + 4000
    rw [e50]; show (i 0).val / 4000 * 4000 ≤ (i 0).val ∧ (i 0).val < (i 0).val / 4000 * 4000 + 4000; omega
  | ⟨1, _⟩ =>
    show win0_5.index ⟨(i 0).val / 4000, hlt⟩ (1 : Fin 2) * 256 ≤ (i 1).val ∧ (i 1).val < win0_5.index ⟨(i 0).val / 4000, hlt⟩ (1 : Fin 2) * 256 + 256
    rw [e51]; omega

/-- THE OUTPUT ARRAY after region 0: the layer, clamped below at zero, of the arrays as the region finds them, whatever they are. -/
theorem final0 (c : Dev nD) : (dat0 V c).arrAt 5 cfg0.N = G0 V c :=
  (dat0 V c).arrAt_eq_of_cover 5 (G0 V c) (fun t _ => flushed0_eq V c t) (cover0)

end Cert.KernelIdeal.RegionValue0

end
-- ==== Proof.RegionValue1.lean ====
/-
  What each of the two kernel launches leaves in its output array, for ANY contents of the buffers at its entry.

  A launch walks 25 grid points; point `t` stages rows `4000 t … 4000 t + 3999` of the node features and of the
  neighbour means, the whole weight matrices and the bias row, runs the body, and writes the 4000 × 256 block back to
  rows `4000 t …` of the output. A layer's output row depends on the same row of the features and means only, so what
  point `t` writes is block `t` of the layer of the whole arrays; the 25 blocks tile the 100000 rows, so the output
  array ends as the layer of the whole arrays.
-/
import proofs.«154255_j9689446219933_1_alg».proof.Proof.Gen.KernelIdeal.Frame
import proofs.«154255_j9689446219933_1_alg».proof.Proof.KernelPayload
import Idealize.ShloMosaic.Lib.Pipeline.Value

set_option maxRecDepth 16384

noncomputable section

open scoped BigOperators

namespace Cert.KernelIdeal.RegionValue1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 1 -/

/-- The printed index maps of region 1's six windows, decided once over the 25 grid points: the two feature windows and
    the output window move down the rows with the point, the weight and bias windows stay at the origin. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What region 1 leaves in its output array: the layer of the arrays as the region finds them. -/
abbrev G1 (c : Dev nD) : FVec Ideal S100000x256 .f32 :=
  Sage.layerPlain (N := 100000) (D := 256) (H := 256) (V c main_v22 : S100000x256.Idx → EReal) (V c main_v35 : S100000x256.Idx → EReal)
    (V c main_arg6 : S256x256.Idx → EReal) (V c main_arg7 : S256x256.Idx → EReal) (V c main_v36 : S1x256.Idx → EReal)

/-- One stored entry against the whole arrays: when the loaded feature blocks' row `p` is the arrays' row `r` and the
    loaded weights and bias are the arrays themselves, the body's value at `(p, q)` is the layer's at `(r, q)`. -/
theorem block_entry1 (x0 x1 : FVec Ideal S4000x256 .f32) (x2 x3 : FVec Ideal S256x256 .f32) (x4 : FVec Ideal S1x256 .f32)
    (A0 A1 : FVec Ideal S100000x256 .f32) (A2 A3 : FVec Ideal S256x256 .f32) (A4 : FVec Ideal S1x256 .f32)
    (p : Fin 4000) (q : Fin 256) (r : Fin 100000)
    (h0 : ∀ k : Fin 256, x0 (ix2 p k) = A0 (ix2 r k)) (h1 : ∀ k : Fin 256, x1 (ix2 p k) = A1 (ix2 r k))
    (h2 : x2 = A2) (h3 : x3 = A3) (h4 : x4 = A4) :
    k1_pay1 (F := Ideal) x0 x1 x2 x3 x4 (ix2 p q) = Sage.layerPlain A0 A1 A2 A3 A4 (ix2 r q) := by
  subst h2 h3 h4
  rw [Payload.pay1_apply]
  unfold Sage.layerPlain
  rw [Sage.entry_congr x0 x1 A0 A1 x2 x3 x4 p r q h0 h1]

/-- WHAT POINT `t` WRITES BACK is block `t` of `G1`: rows `4000 t … 4000 t + 3999`, every column. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S4000x256) hz, View.ld_unit_zero (S := S256x256) hz, View.ld_unit_zero (S := S1x256) hz]
  obtain ⟨e00, e01, e10, e11, e20, e21, e30, e31, e40, e41, e50, e51⟩ := idx_facts1 t
  have hN : cfg1.N = 25 := N_1
  have ht : t.val < 25 := hN ▸ t.isLt
  funext j
  obtain ⟨p, q, rfl⟩ : ∃ (p : Fin 4000) (q : Fin 256), j = ix2 p q := ⟨j 0, j 1, eq_ix2 j⟩
  have hp : p.val < 4000 := p.isLt
  refine (block_entry1 (iblk1 V c 0 t) (iblk1 V c 1 t) (iblk1 V c 2 t) (iblk1 V c 3 t) (iblk1 V c 4 t)
    (V c main_v22) (V c main_v35) (V c main_arg6) (V c main_arg7) (V c main_v36) p q ⟨4000 * t.val + p.val, by omega⟩ ?_ ?_ ?_ ?_ ?_).trans ?_
  · intro k
    show V c main_v22 (((cfg1.win 0).blk t).view.emb (ix2 p k)) = _
    refine congrArg (V c main_v22) (funext fun a => Fin.ext ?_)
    match a with
    | ⟨0, _⟩ => show win1_0.index t (0 : Fin 2) * 4000 + 1 * p.val = 4000 * t.val + p.val; omega
    | ⟨1, _⟩ => show win1_0.index t (1 : Fin 2) * 256 + 1 * k.val = k.val; omega
  · intro k
    show V c main_v35 (((cfg1.win 1).blk t).view.emb (ix2 p k)) = _
    refine congrArg (V c main_v35) (funext fun a => Fin.ext ?_)
    match a with
    | ⟨0, _⟩ => show win1_1.index t (0 : Fin 2) * 4000 + 1 * p.val = 4000 * t.val + p.val; omega
    | ⟨1, _⟩ => show win1_1.index t (1 : Fin 2) * 256 + 1 * k.val = k.val; omega
  · funext y
    show V c main_arg6 (((cfg1.win 2).blk t).view.emb y) = V c main_arg6 y
    refine congrArg (V c main_arg6) (funext fun a => Fin.ext ?_)
    match a with
    | ⟨0, _⟩ => show win1_2.index t (0 : Fin 2) * 256 + 1 * (y 0).val = (y 0).val; omega
    | ⟨1, _⟩ => show win1_2.index t (1 : Fin 2) * 256 + 1 * (y 1).val = (y 1).val; omega
  · funext y
    show V c main_arg7 (((cfg1.win 3).blk t).view.emb y) = V c main_arg7 y
    refine congrArg (V c main_arg7) (funext fun a => Fin.ext ?_)
    match a with
    | ⟨0, _⟩ => show win1_3.index t (0 : Fin 2) * 256 + 1 * (y 0).val = (y 0).val; omega
    | ⟨1, _⟩ => show win1_3.index t (1 : Fin 2) * 256 + 1 * (y 1).val = (y 1).val; omega
  · funext y
    show V c main_v36 (((cfg1.win 4).blk t).view.emb y) = V c main_v36 y
    refine congrArg (V c main_v36) (funext fun a => Fin.ext ?_)
    match a with
    | ⟨0, _⟩ => show win1_4.index t (0 : Fin 2) * 1 + 1 * (y 0).val = (y 0).val; omega
    | ⟨1, _⟩ => show win1_4.index t (1 : Fin 2) * 256 + 1 * (y 1).val = (y 1).val; omega
  · show G1 V c _ = G1 V c (((cfg1.win 5).blk t).view.emb (ix2 p q))
    refine congrArg (G1 V c) (funext fun a => Fin.ext ?_)
    match a with
    | ⟨0, _⟩ => show 4000 * t.val + p.val = win1_5.index t (0 : Fin 2) * 4000 + 1 * p.val; omega
    | ⟨1, _⟩ => show q.val = win1_5.index t (1 : Fin 2) * 256 + 1 * q.val; omega

/-- An index of the output array is in point `t`'s block iff each coordinate is in the block's range on its axis. -/
theorem mem_blk1 (t : Fin cfg1.N) (i : S100000x256.Idx) :
    i ∈ ((cfg1.win 5).blk t).view.set ↔ ∀ a : Fin 2, win1_5.index t a * S4000x256.size a ≤ (i a).val ∧ (i a).val < win1_5.index t a * S4000x256.size a + S4000x256.size a := by
  show i ∈ ((View.whole main_v37).slice (win1_5.rect t)).set ↔ _
  rw [View.set_slice_whole, Rect.mem_set_unit]
  exact Iff.rfl

/-- Every row of the output array is in some point's block: row `r` in point `r / 4000`'s. -/
theorem cover1 (i : S100000x256.Idx) :
    ∃ t : Fin cfg1.N, (cfg1.win 5).flush t = true ∧ i ∈ ((cfg1.win 5).blk t).view.set := by
  have hi0 : (i 0).val < 100000 := (i 0).isLt
  have hi1 : (i 1).val < 256 := (i 1).isLt
  have hN : cfg1.N = 25 := N_1
  have hlt : (i 0).val / 4000 < cfg1.N := by rw [hN]; omega
  obtain ⟨-, -, -, -, -, -, -, -, -, -, e50, e51⟩ := idx_facts1 ⟨(i 0).val / 4000, hlt⟩
  refine ⟨⟨(i 0).val / 4000, hlt⟩, flush1_5 _, ?_⟩
  rw [mem_blk1]
  intro a
  match a with
  | ⟨0, _⟩ =>
    show win1_5.index ⟨(i 0).val / 4000, hlt⟩ (0 : Fin 2) * 4000 ≤ (i 0).val ∧ (i 0).val < win1_5.index ⟨(i 0).val / 4000, hlt⟩ (0 : Fin 2) * 4000 + 4000
    rw [e50]; show (i 0).val / 4000 * 4000 ≤ (i 0).val ∧ (i 0).val < (i 0).val / 4000 * 4000 + 4000; omega
  | ⟨1, _⟩ =>
    show win1_5.index ⟨(i 0).val / 4000, hlt⟩ (1 : Fin 2) * 256 ≤ (i 1).val ∧ (i 1).val < win1_5.index ⟨(i 0).val / 4000, hlt⟩ (1 : Fin 2) * 256 + 256
    rw [e51]; omega

/-- THE OUTPUT ARRAY after region 1: the layer of the arrays as the region finds them, whatever they are. -/
theorem final1 (c : Dev nD) : (dat1 V c).arrAt 5 cfg1.N = G1 V c :=
  (dat1 V c).arrAt_eq_of_cover 5 (G1 V c) (fun t _ => flushed1_eq V c t) (cover1)

end Cert.KernelIdeal.RegionValue1

end
-- ==== Proof.KernelTerms.lean ====
/-
  The idealized kernel's host-side values as functions of the argument arrays.

  Around its two launches the program computes, with host operations: each edge's source node as a gather index
  (negative indices wrapped by the node count) and destination node as a scatter index; the in-degree of every node (a
  scatter-add of ones), clamped below at one, and its reciprocal; and, for each layer, the neighbour mean — the gather
  of the source rows scatter-added by destination, every row scaled by the reciprocal of its node's clamped degree. Each
  launch is one GraphSAGE layer of its node features and that mean; the second layer's features are the first's output.
-/
import proofs.«154255_j9689446219933_1_alg».proof.Proof.Gen.KernelIdeal
import proofs.«154255_j9689446219933_1_alg».proof.Proof.SageLayer

noncomputable section

namespace Cert.KernelIdeal.Terms

open Cert.KernelIdeal Cert.KernelIdeal.Gen Idealize.ShloMosaic

/-- A float array of the named shape, at the extended reals. -/
abbrev CF (s : Shape) := (⟨s, .f32⟩ : BufTy).Contents (Elt Ideal)
/-- An array of 32-bit words of the named shape. -/
abbrev CI (s : Shape) := (⟨s, .i32⟩ : BufTy).Contents (Elt Ideal)

/-- Each edge's source node as a gather start index: a negative index has the node count added. -/
def srcIdx (x1 : CI S800000) : CI S800000x1 :=
  broadcastInDim S800000x1 ![0] bcast_S800000_S800000x1_0
    (select (cmpi .slt x1 (broadcastInDim S800000 ![] bcast_S_S800000 (constantI S_ 32 0#32)))
      (addi x1 (broadcastInDim S800000 ![] bcast_S_S800000 (constantI S_ 32 100000#32))) x1)

/-- Each edge's destination node as a scatter index. -/
def dstIdx (x2 : CI S800000) : CI S800000x1 :=
  broadcastInDim S800000x1 ![0] bcast_S800000_S800000x1_0 x2

/-- Every node's in-degree (ones scatter-added by destination), clamped below at one. -/
def degClamped (x2 : CI S800000) : CF S100000 :=
  maximumf
    (Host.scatterAdd (F := Ideal) scatter_S100000_S800000x1_S800000_n_0_0_1
      (broadcastInDim S100000 ![] bcast_S_S100000 (constant (F := Ideal) S_ .f32 0x00000000#32)) (dstIdx x2)
      (broadcastInDim S800000 ![] bcast_S_S800000 (constant (F := Ideal) S_ .f32 0x3F800000#32)))
    (broadcastInDim S100000 ![] bcast_S_S100000 (constant (F := Ideal) S_ .f32 0x3F800000#32))

/-- The reciprocal of every node's clamped in-degree. -/
def invDeg (x2 : CI S800000) : CF S100000 :=
  Host.divf (F := Ideal) (broadcastInDim S100000 ![] bcast_S_S100000 (constant (F := Ideal) S_ .f32 0x3F800000#32)) (degClamped x2)

/-- Layer one's neighbour sums: the source rows of the features, scatter-added by destination. -/
def agg1 (x0 : CF S100000x128) (x1 x2 : CI S800000) : CF S100000x128 :=
  Host.scatterAdd (F := Ideal) scatter_S100000x128_S800000x1_S800000x128_1_0_0_1
    (broadcastInDim S100000x128 ![] bcast_S_S100000x128 (constant (F := Ideal) S_ .f32 0x00000000#32)) (dstIdx x2)
    (Host.gather gather_S100000x128_S800000x1_S800000x128_1_0_n_n_0_1_1128 x0 (srcIdx x1))

/-- Layer one's neighbour means, by scaling: every row of the sums times its node's reciprocal degree. -/
def mean1 (x0 : CF S100000x128) (x1 x2 : CI S800000) : CF S100000x128 :=
  mulf (F := Ideal) (φ := .f32) (agg1 x0 x1 x2)
    (broadcastInDim S100000x128 ![0, 1] bcast_S100000x1_S100000x128_0_1
      (broadcastInDim S100000x1 ![0] bcast_S100000_S100000x1_0 (invDeg x2)))

/-- A bias vector as a one-row matrix. -/
def biasRow (b : CF S256) : CF S1x256 := shapeCast S1x256 b shapeCasts_S256_S1x256

/-- Layer one's output: the first launch's result. -/
def h1 (x0 : CF S100000x128) (x1 x2 : CI S800000) (x3 x4 : CF S128x256) (x5 : CF S256) : CF S100000x256 :=
  Sage.layerRelu (N := 100000) (D := 128) (H := 256) x0 (mean1 x0 x1 x2) x3 x4 (biasRow x5)

/-- Layer two's neighbour sums, of any layer-one output `h`. -/
def agg2 (h : CF S100000x256) (x1 x2 : CI S800000) : CF S100000x256 :=
  Host.scatterAdd (F := Ideal) scatter_S100000x256_S800000x1_S800000x256_1_0_0_1
    (broadcastInDim S100000x256 ![] bcast_S_S100000x256 (constant (F := Ideal) S_ .f32 0x00000000#32)) (dstIdx x2)
    (Host.gather gather_S100000x256_S800000x1_S800000x256_1_0_n_n_0_1_1256 h (srcIdx x1))

/-- Layer two's neighbour means, by scaling. -/
def mean2 (h : CF S100000x256) (x1 x2 : CI S800000) : CF S100000x256 :=
  mulf (F := Ideal) (φ := .f32) (agg2 h x1 x2)
    (broadcastInDim S100000x256 ![0, 1] bcast_S100000x1_S100000x256_0_1
      (broadcastInDim S100000x1 ![0] bcast_S100000_S100000x1_0 (invDeg x2)))

/-- The program's result: layer two of layer one's output. -/
def result (x0 : CF S100000x128) (x1 x2 : CI S800000) (x3 x4 : CF S128x256) (x5 : CF S256) (x6 x7 : CF S256x256)
    (x8 : CF S256) : CF S100000x256 :=
  Sage.layerPlain (N := 100000) (D := 256) (H := 256) (h1 x0 x1 x2 x3 x4 x5) (mean2 (h1 x0 x1 x2 x3 x4 x5) x1 x2) x6 x7 (biasRow x8)

end Cert.KernelIdeal.Terms

end
-- ==== Proof.KernelFold.lean ====
/-
  The contents of the buffers at each boundary of the idealized kernel's four segments, read down to the arguments.

  The first stretch of host operations leaves the layer-one neighbour means, the bias row and the reciprocal degrees as
  functions of the launch memory; the first launch leaves layer one's output (whatever it found: here those); the second
  stretch computes the layer-two means from that output and the same reciprocal degrees; the second launch leaves layer
  two of them. So the result buffer ends holding the program's result term of the nine arguments.
-/
import proofs.«154255_j9689446219933_1_alg».proof.Proof.Gen.KernelIdeal.Frame
import proofs.«154255_j9689446219933_1_alg».proof.Proof.RegionValue0
import proofs.«154255_j9689446219933_1_alg».proof.Proof.RegionValue1
import proofs.«154255_j9689446219933_1_alg».proof.Proof.KernelTerms
import Idealize.ShloMosaic.Lib.StableHlo.Run

set_option maxRecDepth 16384

noncomputable section

namespace Cert.KernelIdeal.Fold

open Cert.KernelIdeal Cert.KernelIdeal.Gen Cert.KernelIdeal.Terms
open Idealize.ShloMosaic Idealize.ShloMosaic.TcCoe Idealize.SL.Sem Idealize.ShloMosaic.StableHlo

variable (m : (ℓ : Loc nD τ sig) → Buf (Elt Ideal) ℓ) (ρ : Dev nD → PrngReg)

/-- The nine arguments as launched on core `c`. -/
abbrev a0 (c : Dev nD) : CF S100000x128 := m ((c.tc : Thread nD τ).loc main_arg0)
abbrev a1 (c : Dev nD) : CI S800000 := m ((c.tc : Thread nD τ).loc main_arg1)
abbrev a2 (c : Dev nD) : CI S800000 := m ((c.tc : Thread nD τ).loc main_arg2)
abbrev a3 (c : Dev nD) : CF S128x256 := m ((c.tc : Thread nD τ).loc main_arg3)
abbrev a4 (c : Dev nD) : CF S128x256 := m ((c.tc : Thread nD τ).loc main_arg4)
abbrev a5 (c : Dev nD) : CF S256 := m ((c.tc : Thread nD τ).loc main_arg5)
abbrev a6 (c : Dev nD) : CF S256x256 := m ((c.tc : Thread nD τ).loc main_arg6)
abbrev a7 (c : Dev nD) : CF S256x256 := m ((c.tc : Thread nD τ).loc main_arg7)
abbrev a8 (c : Dev nD) : CF S256 := m ((c.tc : Thread nD τ).loc main_arg8)

/-! ## After the first stretch of host operations -/

set_option maxHeartbeats 1600000 in
/-- Layer one's neighbour means. -/
theorem W1_v20 (c : Dev nD) : W1 m ρ c (Proc.devRef .tc main_v20) = mean1 (a0 m c) (a1 m c) (a2 m c) := by
  dsimp only [W1, hostOps0]
  after_results_simp
  rfl

/-- The reciprocal clamped degrees. -/
theorem W1_v7 (c : Dev nD) : W1 m ρ c (Proc.devRef .tc main_v7) = invDeg (a2 m c) := by
  dsimp only [W1, hostOps0]
  after_results
  rfl

/-- Layer one's bias row. -/
theorem W1_v21 (c : Dev nD) : W1 m ρ c (Proc.devRef .tc main_v21) = biasRow (a5 m c) := by
  dsimp only [W1, hostOps0]
  after_results
  rfl

theorem W1_arg0 (c : Dev nD) : W1 m ρ c (Proc.devRef .tc main_arg0) = a0 m c := by
  dsimp only [W1, hostOps0]
  after_results

theorem W1_arg1 (c : Dev nD) : W1 m ρ c (Proc.devRef .tc main_arg1) = a1 m c := by
  dsimp only [W1, hostOps0]
  after_results

theorem W1_arg2 (c : Dev nD) : W1 m ρ c (Proc.devRef .tc main_arg2) = a2 m c := by
  dsimp only [W1, hostOps0]
  after_results

theorem W1_arg3 (c : Dev nD) : W1 m ρ c (Proc.devRef .tc main_arg3) = a3 m c := by
  dsimp only [W1, hostOps0]
  after_results

theorem W1_arg4 (c : Dev nD) : W1 m ρ c (Proc.devRef .tc main_arg4) = a4 m c := by
  dsimp only [W1, hostOps0]
  after_results

theorem W1_arg6 (c : Dev nD) : W1 m ρ c (Proc.devRef .tc main_arg6) = a6 m c := by
  dsimp only [W1, hostOps0]
  after_results

theorem W1_arg7 (c : Dev nD) : W1 m ρ c (Proc.devRef .tc main_arg7) = a7 m c := by
  dsimp only [W1, hostOps0]
  after_results

theorem W1_arg8 (c : Dev nD) : W1 m ρ c (Proc.devRef .tc main_arg8) = a8 m c := by
  dsimp only [W1, hostOps0]
  after_results

/-! ## After the first launch -/

/-- Layer one's output: what the launch leaves of the arrays it found. -/
theorem W2_v22 (c : Dev nD) :
    W2 m ρ c (Proc.devRef .tc main_v22) = h1 (a0 m c) (a1 m c) (a2 m c) (a3 m c) (a4 m c) (a5 m c) := by
  refine (W2_arr m ρ c 5).trans ((RegionValue0.final0 (V1 m ρ) c).trans ?_)
  show Sage.layerRelu (W1 m ρ c (Proc.devRef .tc main_arg0)) (W1 m ρ c (Proc.devRef .tc main_v20))
    (W1 m ρ c (Proc.devRef .tc main_arg3)) (W1 m ρ c (Proc.devRef .tc main_arg4)) (W1 m ρ c (Proc.devRef .tc main_v21)) = _
  rw [W1_arg0, W1_v20, W1_arg3, W1_arg4, W1_v21]
  rfl

/-- The launch writes no other buffer. -/
theorem W2_v7 (c : Dev nD) : W2 m ρ c (Proc.devRef .tc main_v7) = invDeg (a2 m c) :=
  (W2_of_ne m ρ c main_v7 (by decide)).trans (W1_v7 m ρ c)

theorem W2_arg1 (c : Dev nD) : W2 m ρ c (Proc.devRef .tc main_arg1) = a1 m c :=
  (W2_of_ne m ρ c main_arg1 (by decide)).trans (W1_arg1 m ρ c)

theorem W2_arg2 (c : Dev nD) : W2 m ρ c (Proc.devRef .tc main_arg2) = a2 m c :=
  (W2_of_ne m ρ c main_arg2 (by decide)).trans (W1_arg2 m ρ c)

theorem W2_arg6 (c : Dev nD) : W2 m ρ c (Proc.devRef .tc main_arg6) = a6 m c :=
  (W2_of_ne m ρ c main_arg6 (by decide)).trans (W1_arg6 m ρ c)

theorem W2_arg7 (c : Dev nD) : W2 m ρ c (Proc.devRef .tc main_arg7) = a7 m c :=
  (W2_of_ne m ρ c main_arg7 (by decide)).trans (W1_arg7 m ρ c)

theorem W2_arg8 (c : Dev nD) : W2 m ρ c (Proc.devRef .tc main_arg8) = a8 m c :=
  (W2_of_ne m ρ c main_arg8 (by decide)).trans (W1_arg8 m ρ c)

/-! ## After the second stretch of host operations -/

set_option maxHeartbeats 1600000 in
/-- Layer two's neighbour means, of layer one's output. -/
theorem W3_v35 (c : Dev nD) :
    W3 m ρ c (Proc.devRef .tc main_v35)
      = mean2 (h1 (a0 m c) (a1 m c) (a2 m c) (a3 m c) (a4 m c) (a5 m c)) (a1 m c) (a2 m c) := by
  dsimp only [W3, hostOps1]
  after_results_simp
  rw [W2_v22, W2_v7, W2_arg1, W2_arg2]
  rfl

/-- Layer one's output is still there. -/
theorem W3_v22 (c : Dev nD) :
    W3 m ρ c (Proc.devRef .tc main_v22) = h1 (a0 m c) (a1 m c) (a2 m c) (a3 m c) (a4 m c) (a5 m c) := by
  dsimp only [W3, hostOps1]
  after_results
  exact W2_v22 m ρ c

/-- Layer two's bias row. -/
theorem W3_v36 (c : Dev nD) : W3 m ρ c (Proc.devRef .tc main_v36) = biasRow (a8 m c) := by
  dsimp only [W3, hostOps1]
  after_results
  rw [W2_arg8]
  rfl

theorem W3_arg6 (c : Dev nD) : W3 m ρ c (Proc.devRef .tc main_arg6) = a6 m c := by
  dsimp only [W3, hostOps1]
  after_results
  exact W2_arg6 m ρ c

theorem W3_arg7 (c : Dev nD) : W3 m ρ c (Proc.devRef .tc main_arg7) = a7 m c := by
  dsimp only [W3, hostOps1]
  after_results
  exact W2_arg7 m ρ c

/-! ## After the second launch -/

/-- **The result buffer at the last boundary is the program's result term of the nine arguments.** -/
theorem W4_result (c : Dev nD) :
    W4 m ρ c (Proc.devRef .tc main_v37)
      = result (a0 m c) (a1 m c) (a2 m c) (a3 m c) (a4 m c) (a5 m c) (a6 m c) (a7 m c) (a8 m c) := by
  refine (W4_arr m ρ c 5).trans ((RegionValue1.final1 (V3 m ρ) c).trans ?_)
  show Sage.layerPlain (W3 m ρ c (Proc.devRef .tc main_v22)) (W3 m ρ c (Proc.devRef .tc main_v35))
    (W3 m ρ c (Proc.devRef .tc main_arg6)) (W3 m ρ c (Proc.devRef .tc main_arg7)) (W3 m ρ c (Proc.devRef .tc main_v36)) = _
  rw [W3_v22, W3_v35, W3_arg6, W3_arg7, W3_v36]
  rfl

end Cert.KernelIdeal.Fold

end
-- ==== Proof.LibPlainDot.lean ====
/-
  The host's plain matrix product on the extended reals, read at one entry.

  `dot_general` of an `m × k` by a `k × n` array (rows against columns, no batch axis) holds at entry `(a, b)` the sum
  over the contracted position `c` of `A[a,c] · B[c,b]`, whatever the precision and schedule keys: the very sum the matrix
  unit's product into the zero array holds there. The contraction's one-axis index set is re-indexed by its coordinate
  and the operands' indices are named by their coordinates, exactly as for the matrix unit's product.
-/
import proofs.«154255_j9689446219933_1_alg».proof.Proof.LibPlainMatmul

noncomputable section

open scoped BigOperators

namespace Idealize.ShloMosaic.PlainDot

open Idealize.ShloMosaic Idealize.ShloMosaic.ValueIdx Idealize.ShloMosaic.PlainMatmul

variable {m k n : Nat}

/-- **The host's plain product at an entry**: `∑ c, A[a,c] · B[c,b]`, at the ideal values, whatever the operands'
    formats, the precision key and the schedule key. -/
theorem dotGeneral_apply_entry {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- The matrix unit's product into the zero array and the host's product of the same operands are one array. -/
theorem matmul_zero_eq_dotGeneral {φ₁ φ₂ : FTy} (prec prec' : Option ContractPrecision) (sched : HostSchedule)
    (A : FVec Ideal ⟨2, ![m, k]⟩ φ₁) (B : FVec Ideal ⟨2, ![k, n]⟩ φ₂) :
    FloatOps.matmul (DotDims.plain m k n) prec A B (constant ⟨2, ![m, n]⟩ .f32 0x00000000#32)
      = FloatOps.dotGeneral (DotDims.plain m k n) prec' sched A B := by
  funext i
  obtain ⟨a, b, rfl⟩ : ∃ (a : Fin m) (b : Fin n), i = ix2 a b := ⟨i 0, i 1, eq_ix2 i⟩
  rw [matmul_zero_apply, dotGeneral_apply_entry]

end Idealize.ShloMosaic.PlainDot

end
-- ==== Proof.LibMeanScale.lean ====
/-
  Scaling by a reciprocal against dividing, on the extended reals.

  A neighbour mean is a sum divided by a count clamped below at one. One program multiplies the sum by the
  reciprocal `1 / max(n, 1)` computed once; the other divides the sum by `max(n, 1)`. On the extended reals the
  quotient `x / y` is `x · y⁻¹` whenever `y ≠ 0`, and `max(n, 1) ≥ 1` is never zero (whatever `n` is, the
  infinities included), so `a · (1 · d⁻¹) = a · d⁻¹ = a / d`: no finiteness of `a` or `n` is needed.
-/
import Idealize.ShloMosaic.PureOps.Ideal.Laws

noncomputable section

namespace Idealize.ShloMosaic.MeanScale

open Idealize.ShloMosaic

/-- The single-precision word `0x3F800000` denotes the real number one. -/
theorem ofBits_one_f32 : Ideal.ofBits .f32 0x3F800000#32 = 1 := by
  simp [Ideal.ofBits, Ideal.ieee]
  rw [← EReal.coe_mul, ← EReal.coe_one, EReal.coe_eq_coe_iff]
  norm_num

/-- A count clamped below at one is not zero. -/
theorem max_one_ne_zero (x : EReal) : max x 1 ≠ 0 :=
  ne_of_gt (lt_of_lt_of_le zero_lt_one (le_max_right x 1))

/-- **Scaling by the reciprocal of a clamped count is dividing by it**, for every extended real `a` and `x`. -/
theorem mul_recip_eq_div (a x : EReal) : a * Ideal.div 1 (max x 1) = Ideal.div a (max x 1) := by
  unfold Ideal.div
  rw [if_neg (max_one_ne_zero x), if_neg (max_one_ne_zero x), one_mul]

/-- The array form: a sum array `agg` scaled entrywise by the reciprocal of the clamped count read at `β i`, against
    `agg` divided entrywise by the clamped count read at the same place. `β` is whatever re-indexing carries an entry
    of the sum array to its row's count. -/
theorem mulf_recip_eq_hostDivf {s sN : Shape} (β : s.Idx → sN.Idx) (agg : FVec Ideal s .f32) (deg : FVec Ideal sN .f32) :
    mulf agg (fun i => Host.divf (constant (F := Ideal) sN .f32 0x3F800000#32)
        (maximumf deg (constant (F := Ideal) sN .f32 0x3F800000#32)) (β i))
      = Host.divf agg (fun i => maximumf deg (constant (F := Ideal) sN .f32 0x3F800000#32) (β i)) := by
  funext i
  simp only [mulf, Host.divf, maximumf, constant, Ideal.mulf_def, Ideal.hostDivf_def, Ideal.maximumf_def,
    Ideal.ofBits_def, ofBits_one_f32]
  exact mul_recip_eq_div _ _

end Idealize.ShloMosaic.MeanScale

end
-- ==== Proof.RefMeans.lean ====
/-
  The neighbour means of the two programs are equal.

  The kernel scales each row of the scatter-added source rows by the reciprocal of its node's clamped in-degree; the
  reference divides the row by the clamped in-degree. The sums, the index arrays and the clamped degrees are the same
  terms in both programs; a per-node vector broadcast over the columns reads, at an entry, the vector at that entry's
  row; and on the extended reals scaling by `1 / max(n, 1)` is dividing by `max(n, 1)`.
-/
import proofs.«154255_j9689446219933_1_alg».proof.Proof.Gen.ReferenceIdeal.Read
import proofs.«154255_j9689446219933_1_alg».proof.Proof.KernelTerms
import proofs.«154255_j9689446219933_1_alg».proof.Proof.LibMeanScale

set_option maxRecDepth 16384

noncomputable section

namespace Cert.ReferenceIdeal.RefMeans

open Cert.ReferenceIdeal Cert.ReferenceIdeal.Gen Cert.ReferenceIdeal.Read
open Idealize.ShloMosaic Idealize.ShloMosaic.ValueIdx

/-- A float array of the named shape, at the extended reals. -/
abbrev CF (s : Shape) := (⟨s, .f32⟩ : BufTy).Contents (Elt Ideal)
/-- An array of 32-bit words of the named shape. -/
abbrev CI (s : Shape) := (⟨s, .i32⟩ : BufTy).Contents (Elt Ideal)

/-! ## The kernel's host pieces are the reference's, term for term -/

theorem agg1_eq (x0 : CF S100000x128) (x1 x2 : CI S800000) :
    Cert.KernelIdeal.Terms.agg1 x0 x1 x2 = val_main_v9 (F := Ideal) x0 x1 x2 := rfl

theorem agg2_eq (h : CF S100000x256) (x0 : CF S100000x128) (x1 x2 : CI S800000) (x3 x4 : CF S128x256) (x5 : CF S256)
    (hh : h = val_main_v25 (F := Ideal) x0 x1 x2 x3 x4 x5) :
    Cert.KernelIdeal.Terms.agg2 h x1 x2 = val_main_v35 (F := Ideal) x0 x1 x2 x3 x4 x5 := by
  subst hh; rfl

/-- The clamped degrees, through layer one's copy of the degree computation. -/
theorem deg1_eq (x2 : CI S800000) : Cert.KernelIdeal.Terms.degClamped x2 = val_main_v15 (F := Ideal) x2 := rfl

/-- The clamped degrees, through layer two's copy of the degree computation. -/
theorem deg2_eq (x2 : CI S800000) : Cert.KernelIdeal.Terms.degClamped x2 = val_main_v41 (F := Ideal) x2 := rfl

/-- The host quotient of two per-node vectors, at a node. -/
theorem hostDivf_apply (a b : CF S100000) (k : S100000.Idx) :
    Host.divf (F := Ideal) (φ := .f32) a b k = FloatOps.hostDivf (F := Ideal) (φ := .f32) (a k) (b k) := rfl

/-- The reciprocal clamped degree at a node is the word of one over the clamped degree there. -/
theorem invDeg_apply (x2 : CI S800000) (k : S100000.Idx) :
    Cert.KernelIdeal.Terms.invDeg x2 k
      = FloatOps.hostDivf (F := Ideal) (FloatOps.ofBits (F := Ideal) .f32 0x3F800000#32)
          (Cert.KernelIdeal.Terms.degClamped x2 k) := by
  unfold Cert.KernelIdeal.Terms.invDeg
  exact hostDivf_apply _ _ k

/-! ## A per-node vector broadcast over the columns, read at an entry -/

theorem bcast_rows128 (h2 : S100000x1.BroadcastsInDim S100000x128 ![0, 1]) (h1 : S100000.BroadcastsInDim S100000x1 ![0])
    (f : CF S100000) (i : S100000x128.Idx) :
    broadcastInDim S100000x128 ![0, 1] h2 (broadcastInDim S100000x1 ![0] h1 f) i = f (idx_main_v16 (idx_main_v17 i)) := by
  rw [broadcastInDim_apply _ h2 _ i (idx_main_v17 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  exact broadcastInDim_apply _ h1 f (idx_main_v17 i) (idx_main_v16 (idx_main_v17 i)) (fun a => match a with
    | ⟨0, _⟩ => by show (i 0).val = if (100000 : Nat) = 1 then 0 else (i 0).val; rw [if_neg (by decide)])

theorem bcast_rows256 (h2 : S100000x1.BroadcastsInDim S100000x256 ![0, 1]) (h1 : S100000.BroadcastsInDim S100000x1 ![0])
    (f : CF S100000) (i : S100000x256.Idx) :
    broadcastInDim S100000x256 ![0, 1] h2 (broadcastInDim S100000x1 ![0] h1 f) i = f (idx_main_v42 (idx_main_v43 i)) := by
  rw [broadcastInDim_apply _ h2 _ i (idx_main_v43 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  exact broadcastInDim_apply _ h1 f (idx_main_v43 i) (idx_main_v42 (idx_main_v43 i)) (fun a => match a with
    | ⟨0, _⟩ => by show (i 0).val = if (100000 : Nat) = 1 then 0 else (i 0).val; rw [if_neg (by decide)])

/-! ## The means: dividing by the clamped degree is scaling by its reciprocal -/

/-- Layer one's neighbour means. -/
theorem mean1_eq (x0 : CF S100000x128) (x1 x2 : CI S800000) :
    Cert.KernelIdeal.Terms.mean1 x0 x1 x2 = val_main_v18 (F := Ideal) x0 x1 x2 := by
  funext i
  have hk : Cert.KernelIdeal.Terms.mean1 x0 x1 x2 i
      = val_main_v9 (F := Ideal) x0 x1 x2 i * FloatOps.hostDivf (F := Ideal) (FloatOps.ofBits (F := Ideal) .f32 0x3F800000#32)
          (val_main_v15 (F := Ideal) x2 (idx_main_v16 (idx_main_v17 i))) := by
    unfold Cert.KernelIdeal.Terms.mean1
    rw [mulf_apply, bcast_rows128, agg1_eq, invDeg_apply, deg1_eq]
  rw [hk, val_main_v18_apply, val_main_v17_apply, val_main_v16_apply, val_main_v15_apply, val_main_v14_apply,
    val_main_cst_3_apply]
  simp only [Ideal.hostDivf_def, Ideal.maximumf_def, Ideal.ofBits_def, MeanScale.ofBits_one_f32]
  exact MeanScale.mul_recip_eq_div _ _

/-- Layer two's neighbour means, of the reference's own layer-one output. -/
theorem mean2_eq (x0 : CF S100000x128) (x1 x2 : CI S800000) (x3 x4 : CF S128x256) (x5 : CF S256) :
    Cert.KernelIdeal.Terms.mean2 (val_main_v25 (F := Ideal) x0 x1 x2 x3 x4 x5) x1 x2
      = val_main_v44 (F := Ideal) x0 x1 x2 x3 x4 x5 := by
  funext i
  have hk : Cert.KernelIdeal.Terms.mean2 (val_main_v25 (F := Ideal) x0 x1 x2 x3 x4 x5) x1 x2 i
      = val_main_v35 (F := Ideal) x0 x1 x2 x3 x4 x5 i * FloatOps.hostDivf (F := Ideal) (FloatOps.ofBits (F := Ideal) .f32 0x3F800000#32)
          (val_main_v41 (F := Ideal) x2 (idx_main_v42 (idx_main_v43 i))) := by
    unfold Cert.KernelIdeal.Terms.mean2
    rw [mulf_apply, bcast_rows256, agg2_eq _ x0 x1 x2 x3 x4 x5 rfl, invDeg_apply, deg2_eq]
  rw [hk, val_main_v44_apply, val_main_v43_apply, val_main_v42_apply, val_main_v41_apply, val_main_v40_apply,
    val_main_cst_9_apply]
  simp only [Ideal.hostDivf_def, Ideal.maximumf_def, Ideal.ofBits_def, MeanScale.ofBits_one_f32]
  exact MeanScale.mul_recip_eq_div _ _

end Cert.ReferenceIdeal.RefMeans

end
-- ==== Proof.RefValue.lean ====
/-
  The idealized reference, as the same layers of the same means.

  The reference computes each layer as `h · W_self + mean · W_neigh + bias` with host matrix products, the bias vector
  broadcast over the rows, and the neighbour mean as the scatter-added source rows DIVIDED by the clamped in-degree.
  Entry by entry each host product is the plain sum over the contracted position, so a reference layer is the GraphSAGE
  layer of its features and mean; and dividing a row by its node's clamped degree is scaling it by the reciprocal, so the
  reference's means are the kernel's. Hence the reference's result term is the kernel's result term of the same arguments.
-/
import proofs.«154255_j9689446219933_1_alg».proof.Proof.Gen.ReferenceIdeal.Read
import proofs.«154255_j9689446219933_1_alg».proof.Proof.KernelTerms
import proofs.«154255_j9689446219933_1_alg».proof.Proof.LibPlainDot
import proofs.«154255_j9689446219933_1_alg».proof.Proof.RefMeans
import Idealize.ShloMosaic.Lib.ValueLayout

set_option maxRecDepth 16384

noncomputable section

open scoped BigOperators

namespace Cert.ReferenceIdeal.RefValue

open Cert.ReferenceIdeal Cert.ReferenceIdeal.Gen Cert.ReferenceIdeal.Read
open Cert.ReferenceIdeal.RefMeans
open Idealize.ShloMosaic Idealize.ShloMosaic.ValueIdx

/-! ## The bias: a vector cast to one row against a vector broadcast to one row -/

/-- Layer one's bias at a column. -/
theorem bias1_eq (b : CF S256) (r : Fin 100000) (q : Fin 256) :
    val_main_v23 (F := Ideal) b (ix2 r q) = Cert.KernelIdeal.Terms.biasRow b (ix2 (0 : Fin 1) q) := by
  rw [val_main_v23_apply, val_main_v22_apply]
  unfold Cert.KernelIdeal.Terms.biasRow
  rw [shapeCast_a_1a_apply]
  exact congrArg b (funext fun a => by match a with | ⟨0, _⟩ => rfl)

/-- Layer two's bias at a column. -/
theorem bias2_eq (b : CF S256) (r : Fin 100000) (q : Fin 256) :
    val_main_v49 (F := Ideal) b (ix2 r q) = Cert.KernelIdeal.Terms.biasRow b (ix2 (0 : Fin 1) q) := by
  rw [val_main_v49_apply, val_main_v48_apply]
  unfold Cert.KernelIdeal.Terms.biasRow
  rw [shapeCast_a_1a_apply]
  exact congrArg b (funext fun a => by match a with | ⟨0, _⟩ => rfl)

/-! ## The layers -/

/-- The reference's layer one (its two host products, the bias, the clamp at zero) is the GraphSAGE layer of the features
    and the reference's own means. -/
theorem layer1_eq (x0 : CF S100000x128) (x1 x2 : CI S800000) (x3 x4 : CF S128x256) (x5 : CF S256) :
    val_main_v25 (F := Ideal) x0 x1 x2 x3 x4 x5
      = Sage.layerRelu (N := 100000) (D := 128) (H := 256) x0 (val_main_v18 (F := Ideal) x0 x1 x2) x3 x4
          (Cert.KernelIdeal.Terms.biasRow x5) := by
  funext i
  obtain ⟨r, q, rfl⟩ : ∃ (r : Fin 100000) (q : Fin 256), i = ix2 r q := ⟨i 0, i 1, eq_ix2 i⟩
  have hl : ∀ k : Fin 128, lidx_main_v19 (ix2 r q) k = ix2 r k := fun k => funext fun a => by
    match a with
    | ⟨0, _⟩ => rfl
    | ⟨1, _⟩ => rfl
  have hr : ∀ k : Fin 128, ridx_main_v19 (ix2 r q) k = ix2 k q := fun k => funext fun a => by
    match a with
    | ⟨0, _⟩ => rfl
    | ⟨1, _⟩ => rfl
  have hl' : ∀ k : Fin 128, lidx_main_v20 (ix2 r q) k = ix2 r k := fun k => funext fun a => by
    match a with
    | ⟨0, _⟩ => rfl
    | ⟨1, _⟩ => rfl
  have hr' : ∀ k : Fin 128, ridx_main_v20 (ix2 r q) k = ix2 k q := fun k => funext fun a => by
    match a with
    | ⟨0, _⟩ => rfl
    | ⟨1, _⟩ => rfl
  rw [val_main_v25_apply, val_main_v24_apply, val_main_v21_apply, val_main_v19_apply, val_main_v20_apply,
    val_main_call0_v0_apply, val_main_call0_cst_apply, bias1_eq]
  simp only [hl, hr, hl', hr', Ideal.maximumf_def, Ideal.addf_def, Ideal.ofBits_def, Ideal.ofBits_zero_f32]
  rfl

/-- The reference's layer two is the GraphSAGE layer of its layer-one output and its own means. -/
theorem layer2_eq (x0 : CF S100000x128) (x1 x2 : CI S800000) (x3 x4 : CF S128x256) (x5 : CF S256) (x6 x7 : CF S256x256)
    (x8 : CF S256) :
    val_main_v50 (F := Ideal) x0 x1 x2 x3 x4 x5 x6 x7 x8
      = Sage.layerPlain (N := 100000) (D := 256) (H := 256) (val_main_v25 (F := Ideal) x0 x1 x2 x3 x4 x5)
          (val_main_v44 (F := Ideal) x0 x1 x2 x3 x4 x5) x6 x7 (Cert.KernelIdeal.Terms.biasRow x8) := by
  funext i
  obtain ⟨r, q, rfl⟩ : ∃ (r : Fin 100000) (q : Fin 256), i = ix2 r q := ⟨i 0, i 1, eq_ix2 i⟩
  have hl : ∀ k : Fin 256, lidx_main_v45 (ix2 r q) k = ix2 r k := fun k => funext fun a => by
    match a with
    | ⟨0, _⟩ => rfl
    | ⟨1, _⟩ => rfl
  have hr : ∀ k : Fin 256, ridx_main_v45 (ix2 r q) k = ix2 k q := fun k => funext fun a => by
    match a with
    | ⟨0, _⟩ => rfl
    | ⟨1, _⟩ => rfl
  have hl' : ∀ k : Fin 256, lidx_main_v46 (ix2 r q) k = ix2 r k := fun k => funext fun a => by
    match a with
    | ⟨0, _⟩ => rfl
    | ⟨1, _⟩ => rfl
  have hr' : ∀ k : Fin 256, ridx_main_v46 (ix2 r q) k = ix2 k q := fun k => funext fun a => by
    match a with
    | ⟨0, _⟩ => rfl
    | ⟨1, _⟩ => rfl
  rw [val_main_v50_apply, val_main_v47_apply, val_main_v45_apply, val_main_v46_apply, bias2_eq]
  simp only [hl, hr, hl', hr', Ideal.addf_def]
  rfl

/-! ## The result -/

/-- **The reference's result term is the kernel's**, for all nine arguments. -/
theorem result_eq (x0 : CF S100000x128) (x1 x2 : CI S800000) (x3 x4 : CF S128x256) (x5 : CF S256) (x6 x7 : CF S256x256)
    (x8 : CF S256) :
    val_main_v50 (F := Ideal) x0 x1 x2 x3 x4 x5 x6 x7 x8 = Cert.KernelIdeal.Terms.result x0 x1 x2 x3 x4 x5 x6 x7 x8 := by
  rw [layer2_eq, ← mean2_eq, layer1_eq, ← mean1_eq]
  rfl

end Cert.ReferenceIdeal.RefValue

end
-- ==== Proof.lean ====
/-
  GraphSAGE with mean aggregation, two layers: a tiled kernel against its plain reference, on the extended reals.

  Both programs compute, for node features `feat : [100000, 128]` and 800000 edges `src → dst`,

      h₁ = max(feat · W_self¹ + mean(feat) · W_neigh¹ + b¹, 0),    h₂ = h₁ · W_self² + mean(h₁) · W_neigh² + b²,

  where `mean(h)[v]` is the sum of `h[src e]` over the edges `e` with `dst e = v`, over `max(deg v, 1)`. They differ in
  two ways. The kernel computes the reciprocal `1 / max(deg, 1)` once and SCALES each sum by it, where the reference
  DIVIDES each sum by `max(deg, 1)`: on the extended reals `x / y = x · y⁻¹` for `y ≠ 0`, and `max(deg, 1) ≥ 1` is never
  zero, so the two means are equal for every input (no finiteness is used). And the kernel computes each layer's dense
  part in 25 launches' blocks of 4000 rows, by two matrix-unit products into zero accumulators (after narrowing to bf16,
  the identity here), where the reference takes two whole host products: entry by entry both are the same sum over the
  contracted position, a layer's output row reads only that row of its inputs, and the 25 blocks tile the rows. The
  gathers and scatter-adds are the same operations of the same index arrays in both programs and are never opened.

  The modules: `SageLayer` (the layer, entry by entry), `KernelPayload` (what a kernel body stores),
  `RegionValue0/1` (what each launch leaves in its output array, whatever it finds), `KernelTerms` (the kernel's host-side
  values as functions of the arguments), `KernelRun` and `KernelFold` (the kernel's run, and its result buffer read down to
  the arguments), `RefValue` (the reference's result term is the kernel's), and the claims below.
-/
import proofs.«154255_j9689446219933_1_alg».proof.Defs
import proofs.«154255_j9689446219933_1_alg».proof.Proof.Gen.Kernel
import proofs.«154255_j9689446219933_1_alg».proof.Proof.Gen.Kernel.Frame
import proofs.«154255_j9689446219933_1_alg».proof.Proof.Gen.KernelIdeal
import proofs.«154255_j9689446219933_1_alg».proof.Proof.Gen.KernelIdeal.Frame
import proofs.«154255_j9689446219933_1_alg».proof.Proof.Gen.ReferenceIdeal
import proofs.«154255_j9689446219933_1_alg».proof.Proof.Gen.ReferenceIdeal.Read
import proofs.«154255_j9689446219933_1_alg».proof.Proof.Gen.Pre_finite_inputs
import proofs.«154255_j9689446219933_1_alg».proof.Proof.KernelRun
import proofs.«154255_j9689446219933_1_alg».proof.Proof.KernelFold
import proofs.«154255_j9689446219933_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the nine arguments both idealized programs end with the same result: the kernel's result
    term of the arguments, which the reference's result term equals. -/
theorem algebraic : Cert.algebraic_KernelIdeal_ReferenceIdeal := by
  intro m ρ m' ρ' _ hagree
  refine ⟨fun c => Cert.KernelIdeal.Terms.result (Cert.KernelIdeal.Fold.a0 m c) (Cert.KernelIdeal.Fold.a1 m c)
    (Cert.KernelIdeal.Fold.a2 m c) (Cert.KernelIdeal.Fold.a3 m c) (Cert.KernelIdeal.Fold.a4 m c) (Cert.KernelIdeal.Fold.a5 m c)
    (Cert.KernelIdeal.Fold.a6 m c) (Cert.KernelIdeal.Fold.a7 m c) (Cert.KernelIdeal.Fold.a8 m c), ?_, ?_⟩
  · exact (θ_run Cert.KernelIdeal.defs _ _).mono
      (fun r h c => ⟨(h c).1.trans (Cert.KernelIdeal.Fold.W4_result m ρ c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v50_eq, Cert.ReferenceIdeal.RefValue.result_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
